-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x224x224 : Shape := ⟨4, ![32, 64, 224, 224]⟩
abbrev S_ : Shape := ⟨0, ![]⟩

class Facts : Prop where
  bcast_S_S32x64x224x224 : S_.BroadcastsInDim S32x64x224x224 (![] : Fin 0 → Fin S32x64x224x224.rank)
  reducesTo_S32x64x224x224_S_d0_1_2_3 : S32x64x224x224.ReducesTo [0, 1, 2, 3] S_
  h_S_ : 0 < S_.numel

variable [Facts]

def fn {F : FTy → Type} [FloatOps F] (main_arg0 : FVec F S32x64x224x224 .f32) : IVec S_ 1 :=
  let main_v0 : FVec F S32x64x224x224 .f32 := Host.absf main_arg0
  let main_cst : FVec F S_ .f32 := constant S_ .f32 0x7F800000#32
  let main_v1 : FVec F S32x64x224x224 .f32 := broadcastInDim S32x64x224x224 ![] bcast_S_S32x64x224x224 main_cst
  let main_v2 : IVec S32x64x224x224 1 := cmpf .olt main_v0 main_v1
  let main_c : IVec S_ 1 := constantI S_ 1 1#1
  let main_v3 : IVec S_ 1 := (fun x v => Host.reduce IntOp.andi x v reducesTo_S32x64x224x224_S_d0_1_2_3 h_S_) main_v2 main_c
  main_v3
-- ==== Kernel.lean ====
abbrev S32x64x224x224 : Shape := ⟨4, ![32, 64, 224, 224]⟩
abbrev S2048x224x224 : Shape := ⟨3, ![2048, 224, 224]⟩
abbrev S2048x224x112x2 : Shape := ⟨4, ![2048, 224, 112, 2]⟩
abbrev S2048x224x2x112 : Shape := ⟨4, ![2048, 224, 2, 112]⟩
abbrev S2048x112x448 : Shape := ⟨3, ![2048, 112, 448]⟩
abbrev S2048x112x112 : Shape := ⟨3, ![2048, 112, 112]⟩
abbrev S32x112x448 : Shape := ⟨3, ![32, 112, 448]⟩
abbrev S32x112x112 : Shape := ⟨3, ![32, 112, 112]⟩
abbrev S32x112x224 : Shape := ⟨3, ![32, 112, 224]⟩
abbrev S32x64x112x112 : Shape := ⟨4, ![32, 64, 112, 112]⟩

abbrev nBuf : Space → Nat
  | .hbm => 8
  | .vmem => 5
  | .smem => 0
  | _ => 0

abbrev bufTy : (tb : Table) → Fin (tcTables nBuf tb) → BufTy
  | .hbm, ⟨0, _⟩ => ⟨S32x64x224x224, .f32⟩
  | .hbm, ⟨1, _⟩ => ⟨S2048x224x224, .f32⟩
  | .hbm, ⟨2, _⟩ => ⟨S2048x224x112x2, .f32⟩
  | .hbm, ⟨3, _⟩ => ⟨S2048x224x2x112, .f32⟩
  | .hbm, ⟨4, _⟩ => ⟨S2048x224x224, .f32⟩
  | .hbm, ⟨5, _⟩ => ⟨S2048x112x448, .f32⟩
  | .hbm, ⟨6, _⟩ => ⟨S2048x112x112, .f32⟩
  | .hbm, ⟨7, _⟩ => ⟨S32x64x112x112, .f32⟩
  | .local _ .vmem, ⟨0, _⟩ => ⟨S32x112x448, .f32⟩
  | .local _ .vmem, ⟨1, _⟩ => ⟨S32x112x448, .f32⟩
  | .local _ .vmem, ⟨2, _⟩ => ⟨S32x112x112, .f32⟩
  | .local _ .vmem, ⟨3, _⟩ => ⟨S32x112x112, .f32⟩
  | .local _ .vmem, ⟨4, _⟩ => ⟨S32x112x224, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x112x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x64x224x224_S2048x224x224 : S32x64x224x224.ShapeCasts S2048x224x224
  shapeCasts_S2048x224x224_S2048x224x112x2 : S2048x224x224.ShapeCasts S2048x224x112x2
  transposes_S2048x224x112x2_S2048x224x2x112_0_1_3_2 : S2048x224x112x2.Transposes [0, 1, 3, 2] S2048x224x2x112
  shapeCasts_S2048x224x2x112_S2048x224x224 : S2048x224x2x112.ShapeCasts S2048x224x224
  shapeCasts_S2048x224x224_S2048x112x448 : S2048x224x224.ShapeCasts S2048x112x448
  inb_S32x112x448_S32x112x224_0_0_0 : ∀ a, (![0, 0, 0] : Fin 3 → Nat) a + S32x112x224.size a ≤ S32x112x448.size a
  h_S32x112x224 : 0 < S32x112x224.numel
  shapeCasts_S32x112x224_S32x112x224 : S32x112x224.ShapeCasts S32x112x224
  inb_S32x112x448_S32x112x224_0_0_224 : ∀ a, (![0, 0, 224] : Fin 3 → Nat) a + S32x112x224.size a ≤ S32x112x448.size a
  inb_S32x112x224_S32x112x224_0_0_0 : ∀ a, (![0, 0, 0] : Fin 3 → Nat) a + S32x112x224.size a ≤ S32x112x224.size a
  inb_S32x112x224_S32x112x112_0_0_0 : ∀ a, (![0, 0, 0] : Fin 3 → Nat) a + S32x112x112.size a ≤ S32x112x224.size a
  h_S32x112x112 : 0 < S32x112x112.numel
  inb_S32x112x224_S32x112x112_0_0_112 : ∀ a, (![0, 0, 112] : Fin 3 → Nat) a + S32x112x112.size a ≤ S32x112x224.size a
  inb_S32x112x112_S32x112x112_0_0_0 : ∀ a, (![0, 0, 0] : Fin 3 → Nat) a + S32x112x112.size a ≤ S32x112x112.size a
  shapeCasts_S2048x112x112_S32x64x112x112 : S2048x112x112.ShapeCasts S32x64x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x112x448.size a ≤ S2048x112x448.size a
  hwx0_0 : ∀ i : grid0.Coords, EltTy.bits .f32 = 32 ∨ (Rect.block (s := S2048x112x448) S32x112x448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x112x112.size a ≤ S2048x112x112.size a
  hwx0_1 : ∀ i : grid0.Coords, EltTy.bits .f32 = 32 ∨ (Rect.block (s := S2048x112x112) S32x112x112.size (cc0_transform_1 i) (hinb0_1 i)).WholeWords (EltTy.packing .f32)

variable [Facts₀]

abbrev win0_0 : Pipeline.Window sig grid0 :=
  Pipeline.Window.ofSpec (Memref.whole main_v4) S32x112x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x224x224 : Shape := ⟨4, ![32, 64, 224, 224]⟩
abbrev S_ : Shape := ⟨0, ![]⟩
abbrev S32x64x112x112 : Shape := ⟨4, ![32, 64, 112, 112]⟩

abbrev nBuf : Space → Nat
  | .hbm => 3
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S_, .f32⟩
  | .hbm, ⟨2, _⟩ => ⟨S32x64x112x112, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reduceWindows_S32x64x224x224_S32x64x112x112_w1s1p0_0_w1s1p0_0_w2s2p0_0_w2s2p0_0 : S32x64x224x224.ReduceWindows (![1, 1, 2, 2] : Fin 4 → Nat) ![1, 1, 2, 2] ![0, 0, 0, 0] ![0, 0, 0, 0] S32x64x112x112
  h_S_ : 0 < S_.numel

variable [Facts₀]

class Facts : Prop extends Facts₀ where

variable [Facts]
-- ==== Proof.PoolBlock.lean ====
/-
  One grid point of the pooling kernel, as a function of the block it loads.

  The block x has shape [32, 112, 448]: row (b, k) is image row 2k followed by image row 2k+1, each 224 wide, and
  inside each half the 112 even columns come before the 112 odd ones. The body takes the maximum of the two halves
  of every row (rows 2k and 2k+1) into a [32, 112, 224] scratch, reads the scratch back as its two halves of width
  112 (even and odd columns) and stores their maximum. So the stored block at (b, k, j) is the maximum of
  x(b, k, j), x(b, k, j + 224), x(b, k, j + 112), x(b, k, j + 336).
-/
import proofs.«112859_j48137993453716_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx

namespace Cert.KernelIdeal.PoolBlock

open Cert.KernelIdeal Cert.KernelIdeal.Gen

section WholeStore
variable {Val : EltTy → Type} {S : Shape} {e : EltTy}

/-- A load through any rectangle of what ONE store of the whole shape left reads the stored value there. -/
theorem readCov_whole_store [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

end WholeStore

variable {F : FTy → Type} [FloatOps F]

theorem hz : (![0, 0, 0] : Fin 3 → Nat) = fun _ => 0 := funext fun a => by fin_cases a <;> rfl

/-- The maximum of a row's two halves: image rows 2k and 2k+1 side by side, entry by entry. -/
def rowPairMax (x : Vec F S32x112x448 .f32) : Vec F S32x112x224 .f32 :=
  maximumf (View.ld x (Rect.unit ![0, 0, 0] S32x112x224.size inb_S32x112x448_S32x112x224_0_0_0))
    (View.ld x (Rect.unit ![0, 0, 224] S32x112x224.size inb_S32x112x448_S32x112x224_0_0_224))

/-- What one grid point stores: the maximum of the even-column half and the odd-column half of `rowPairMax`. -/
def blockPool (x : Vec F S32x112x448 .f32) : Vec F S32x112x112 .f32 :=
  maximumf (View.ld (rowPairMax x) (Rect.unit ![0, 0, 0] S32x112x112.size inb_S32x112x224_S32x112x112_0_0_0))
    (View.ld (rowPairMax x) (Rect.unit ![0, 0, 112] S32x112x112.size inb_S32x112x224_S32x112x112_0_0_112))

/-- The body's one store into the output block is `blockPool` of the input block: the scratch is written whole and
    read back through its two halves. -/
theorem block_eq (c : Dev nD) (i : grid0.Coords) (a1 : Memref sig .tc .vmem S32x112x448 .f32) (h1 : a1.IsWhole)
    (a2 : Memref sig .tc .vmem S32x112x112 .f32) (h2 : a2.IsWhole) (a3 : Memref sig .tc .vmem S32x112x224 .f32)
    (h3 : a3.IsWhole) (x : Vec F S32x112x448 .f32) :
    out0_A_1 c i a1 h1 a2 h2 a3 h3 x = blockPool x := by
  unfold out0_A_1
  rw [View.read_writes_eq_canon _ _ _ (cover0_A_1 c i a1 h1 a2 h2 a3 h3 x)]
  unfold kernelRun0_A
  dsimp only
  sl_unfold_words
  rw [View.canon_unit_zero hz]
  rw [readCov_whole_store (S := S32x112x224) _ hz, readCov_whole_store (S := S32x112x224) _ hz]
  unfold k0_pay2 k0_pay1
  simp only [View.readAt_eq_ld, h1.read_unread, shapeCast_self]
  rfl

/-- Entry (b, k, j) of the stored block: the maximum over the four positions j, j + 224 (the row below), j + 112
    (the odd column) and j + 336 (both). -/
theorem blockPool_apply (x : Vec F S32x112x448 .f32) (b : Fin 32) (k : Fin 112) (j : Fin 112) :
    blockPool x (ix3 b k j)
      = FloatOps.maximumf
          (FloatOps.maximumf (x (ix3 b k ⟨j.val, by omega⟩)) (x (ix3 b k ⟨j.val + 224, by omega⟩)))
          (FloatOps.maximumf (x (ix3 b k ⟨j.val + 112, by omega⟩)) (x (ix3 b k ⟨j.val + 336, by omega⟩))) := by
  have e : ∀ (o1 o2 : Nat) (h1 : ∀ a, (![0, 0, o1] : Fin 3 → Nat) a + S32x112x224.size a ≤ S32x112x448.size a)
      (h2 : ∀ a, (![0, 0, o2] : Fin 3 → Nat) a + S32x112x112.size a ≤ S32x112x224.size a) (hlt : j.val + (o2 + o1) < 448),
      (Rect.unit (s := S32x112x448) ![0, 0, o1] S32x112x224.size h1).idx ((Rect.unit (s := S32x112x224) ![0, 0, o2] S32x112x112.size h2).idx (ix3 b k j))
        = (ix3 b k ⟨j.val + (o2 + o1), hlt⟩ : S32x112x448.Idx) := by
    intro o1 o2 h1 h2 hlt
    funext a
    apply Fin.ext
    match a with
    | ⟨0, _⟩ => show 0 + 1 * (0 + 1 * b.val) = b.val; omega
    | ⟨1, _⟩ => show 0 + 1 * (0 + 1 * k.val) = k.val; omega
    | ⟨2, _⟩ => show o1 + 1 * (o2 + 1 * j.val) = j.val + (o2 + o1); omega
  show FloatOps.maximumf (FloatOps.maximumf (x _) (x _)) (FloatOps.maximumf (x _) (x _)) = _
  rw [e 0 0 _ _ (by omega), e 224 0 _ _ (by omega), e 0 112 _ _ (by omega), e 224 112 _ _ (by omega)]
  rfl

end Cert.KernelIdeal.PoolBlock

end
-- ==== Proof.PoolLayout.lean ====
/-
  The two re-layouts around the pooling kernel, read at an entry.

  Before the kernel the image batch x[n, c, h, w] (32 × 64 × 224 × 224) is re-laid, without changing any value, as
  z[64 n + c, k, 224 a + 112 p + j] = x[n, c, 2 k + a, 2 j + p]   (a, p ∈ {0, 1}, k, j < 112):
  the two channel axes are merged, each row's columns are split by parity (even columns first), and rows 2k and
  2k + 1 are laid side by side. After the kernel the merged channel axis is split again:
  y[n, c, k, j] = u[64 n + c, k, j].
-/
import proofs.«112859_j48137993453716_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx

namespace Cert.KernelIdeal.PoolLayout

open Cert.KernelIdeal Cert.KernelIdeal.Gen

variable {α : Type}

/-- The array the kernel is launched on, as a function of the argument: merge (n, c); split each row's columns
    into (column pair, parity); bring the parity in front; merge back; lay row pairs side by side. -/
def relaid (x : S32x64x224x224.Idx → α) : S2048x112x448.Idx → α :=
  shapeCast S2048x112x448
    (shapeCast S2048x224x224
      (transpose S2048x224x2x112 [0, 1, 3, 2]
        (shapeCast S2048x224x112x2
          (shapeCast S2048x224x224 x shapeCasts_S32x64x224x224_S2048x224x224)
          shapeCasts_S2048x224x224_S2048x224x112x2)
        transposes_S2048x224x112x2_S2048x224x2x112_0_1_3_2)
      shapeCasts_S2048x224x2x112_S2048x224x224)
    shapeCasts_S2048x224x224_S2048x112x448

/-- Entry (64 n + c, k, 224 a + 112 p + j) of the re-laid array is x(n, c, 2 k + a, 2 j + p): each step keeps the
    row-major position, and the one transpose swaps (column pair, parity). -/
theorem relaid_apply (x : S32x64x224x224.Idx → α) (n : Fin 32) (ch : Fin 64) (k : Fin 112) (a p : Fin 2) (j : Fin 112)
    (B : Fin 2048) (hB : B.val = 64 * n.val + ch.val) (cc : Fin 448) (hcc : cc.val = 224 * a.val + 112 * p.val + j.val)
    (h : Fin 224) (hh : h.val = 2 * k.val + a.val) (w : Fin 224) (hw : w.val = 2 * j.val + p.val) :
    relaid x (ix3 B k cc) = x (ix4 n ch h w) := by
  have hn := n.isLt; have hc := ch.isLt; have hk := k.isLt; have ha := a.isLt; have hp := p.isLt; have hj := j.isLt
  unfold relaid
  refine (shapeCast_apply _ _ (ix3 B k cc) (ix3 B h ⟨112 * p.val + j.val, by omega⟩) ?_).trans ?_
  · rw [Shape.rowMajor_val_three, Shape.rowMajor_val_three]
    show (B.val * 224 + h.val) * 224 + (112 * p.val + j.val) = (B.val * 112 + k.val) * 448 + cc.val
    omega
  refine (shapeCast_apply _ _ _ (ix4 B h p j) ?_).trans ?_
  · rw [Shape.rowMajor_val_four, Shape.rowMajor_val_three]
    show ((B.val * 224 + h.val) * 2 + p.val) * 112 + j.val = (B.val * 224 + h.val) * 224 + (112 * p.val + j.val)
    omega
  refine (transpose_apply _ _ _ _ (ix4 B h j p) ?_).trans ?_
  · intro b
    match b with
    | ⟨0, _⟩ => rfl
    | ⟨1, _⟩ => rfl
    | ⟨2, _⟩ => rfl
    | ⟨3, _⟩ => rfl
  refine (shapeCast_apply _ _ _ (ix3 B h w) ?_).trans ?_
  · rw [Shape.rowMajor_val_three, Shape.rowMajor_val_four]
    show (B.val * 224 + h.val) * 224 + w.val = ((B.val * 224 + h.val) * 112 + j.val) * 2 + p.val
    omega
  refine shapeCast_apply _ _ _ (ix4 n ch h w) ?_
  rw [Shape.rowMajor_val_four, Shape.rowMajor_val_three]
  show ((n.val * 64 + ch.val) * 224 + h.val) * 224 + w.val = (B.val * 224 + h.val) * 224 + w.val
  omega

/-- The result's last step read at an entry: (n, c, k, j) of the split array is (64 n + c, k, j) of the merged one. -/
theorem split_apply (u : S2048x112x112.Idx → α) (n : Fin 32) (ch : Fin 64) (k j : Fin 112)
    (B : Fin 2048) (hB : B.val = 64 * n.val + ch.val) :
    shapeCast S32x64x112x112 u shapeCasts_S2048x112x112_S32x64x112x112 (ix4 n ch k j) = u (ix3 B k j) := by
  refine shapeCast_apply _ _ _ (ix3 B k j) ?_
  rw [Shape.rowMajor_val_three, Shape.rowMajor_val_four]
  show (B.val * 112 + k.val) * 112 + j.val = ((n.val * 64 + ch.val) * 112 + k.val) * 112 + j.val
  omega

variable {F : FTy → Type} [FloatOps F]
variable (m : (ℓ : Loc nD τ sig) → Buf (Elt F) ℓ)

/-- The array the kernel is launched on is the re-laid argument: the five layout steps before the kernel, composed. -/
theorem V_launch (c : Dev nD) :
    (V m c main_v4 : S2048x112x448.Idx → Elt F .f32) = relaid (m ((c : Thread nD τ).loc main_arg0)) := by
  show StableHlo.after hostOps0 (fun b => m (c, b)) (Proc.devRef .tc main_v4) = _
  after_results
  rfl

end Cert.KernelIdeal.PoolLayout

end
-- ==== Proof.PoolArray.lean ====
/-
  From the kernel's blocks to its result array, and on to the program's result.

  Grid point t loads rows 32 t … 32 t + 31 of the launched array z [2048, 112, 448] and stores rows
  32 t … 32 t + 31 of the result u [2048, 112, 112]; the 64 points tile both. Every stored block is the restriction
  of ONE function of z,
      u(B, k, j) = max (max z(B, k, j) z(B, k, j + 224)) (max z(B, k, j + 112) z(B, k, j + 336)),
  so the result array ends holding that function; the program's result is u with its leading axis split.
-/
import proofs.«112859_j48137993453716_2_alg».proof.Proof.PoolBlock
import proofs.«112859_j48137993453716_2_alg».proof.Proof.PoolLayout

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.PoolArray

open Cert.KernelIdeal Cert.KernelIdeal.Gen Cert.KernelIdeal.PoolBlock Cert.KernelIdeal.PoolLayout

variable {F : FTy → Type} [FloatOps F]

/-- The maximum over the four positions of the launched array that hold one 2 × 2 window. -/
def pool4 (z : S2048x112x448.Idx → Elt F .f32) (B : Fin 2048) (k : Fin 112) (j : Fin 112) : Elt F .f32 :=
  FloatOps.maximumf
    (FloatOps.maximumf (z (ix3 B k ⟨j.val, by omega⟩)) (z (ix3 B k ⟨j.val + 224, by omega⟩)))
    (FloatOps.maximumf (z (ix3 B k ⟨j.val + 112, by omega⟩)) (z (ix3 B k ⟨j.val + 336, by omega⟩)))

/-- The kernel's result array as one function of the launched array. -/
def pooled (z : S2048x112x448.Idx → Elt F .f32) : S2048x112x112.Idx → Elt F .f32 :=
  fun i => pool4 z (i 0) (i 1) (i 2)

/-- Row b of block T is row 32 T + b of the array. -/
theorem row_lt (T : Nat) (hT : T < 64) (b : Fin 32) : T * 32 + b.val < 2048 := by have := b.isLt; omega

/-- A stored block is the restriction of `pooled`: if the loaded block x is rows 32 T … of z, then entry y of the
    stored block is entry (32 T + y₀, y₁, y₂) of `pooled z`. -/
theorem blockPool_read (z : S2048x112x448.Idx → Elt F .f32) (x : Vec F S32x112x448 .f32) (T : Nat) (hT : T < 64)
    (hx : ∀ (b : Fin 32) (k : Fin 112) (cc : Fin 448), x (ix3 b k cc) = z (ix3 ⟨T * 32 + b.val, row_lt T hT b⟩ k cc))
    (y : S32x112x112.Idx) (i : S2048x112x112.Idx) (hi0 : (i 0).val = T * 32 + (y 0).val) (hi1 : (i 1).val = (y 1).val)
    (hi2 : (i 2).val = (y 2).val) :
    blockPool x y = pooled z i := by
  obtain ⟨b, k, j, rfl⟩ : ∃ (b : Fin 32) (k : Fin 112) (j : Fin 112), y = ix3 b k j := ⟨y 0, y 1, y 2, eq_ix3 y⟩
  obtain ⟨B, K, J, rfl⟩ : ∃ (B : Fin 2048) (K : Fin 112) (J : Fin 112), i = ix3 B K J := ⟨i 0, i 1, i 2, eq_ix3 i⟩
  obtain rfl : B = ⟨T * 32 + b.val, row_lt T hT b⟩ := Fin.ext hi0
  obtain rfl : K = k := Fin.ext hi1
  obtain rfl : J = j := Fin.ext hi2
  rw [blockPool_apply, hx, hx, hx, hx]
  rfl

variable (m : (ℓ : Loc nD τ sig) → Buf (Elt F) ℓ) (ρ : Dev nD → PrngReg)

/-- The printed index maps over the grid: point t's blocks are block t along the leading axis, block 0 along the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point t writes back is block t of `pooled` of the launched array. -/
theorem flushed_eq (c : Dev nD) (t : Fin cfg0.N) :
    (dats m 0 c).flushed 1 t = ((cfg0.win 1).blk t).view.read (Elt F) (pooled (V m c main_v4)) := by
  show (cfg0.win 1).cut (grid0.coords t) ((dats m 0 c).after 1 t) = _
  rw [after0_1]
  unfold outsAt0
  rw [block_eq]
  obtain ⟨a0, a1, a2, b0, b1, b2⟩ := idx_facts t
  have hT : t.val < 64 := lt_of_lt_of_eq t.isLt N_0
  funext y
  refine blockPool_read (V m c main_v4) (iblk m c 0 t) t.val hT (fun b k cc => ?_) y _ ?_ ?_ ?_
  · unfold iblk
    rw [View.read_apply]
    show V m c main_v4 _ = V m c main_v4 _
    congr 1
    funext a
    apply Fin.ext
    match a with
    | ⟨0, _⟩ => show win0_0.index t (0 : Fin 3) * 32 + 1 * b.val = t.val * 32 + b.val; rw [a0]; omega
    | ⟨1, _⟩ => show win0_0.index t (1 : Fin 3) * 112 + 1 * k.val = k.val; rw [a1]; omega
    | ⟨2, _⟩ => show win0_0.index t (2 : Fin 3) * 448 + 1 * cc.val = cc.val; rw [a2]; omega
  · show win0_1.index t (0 : Fin 3) * 32 + 1 * (y 0).val = t.val * 32 + (y 0).val; rw [b0]; omega
  · show win0_1.index t (1 : Fin 3) * 112 + 1 * (y 1).val = (y 1).val; rw [b1]; omega
  · show win0_1.index t (2 : Fin 3) * 112 + 1 * (y 2).val = (y 2).val; rw [b2]; omega

/-- An entry of the result array is in point t's block iff each coordinate is in the block's range. -/
theorem mem_blk (t : Fin cfg0.N) (i : S2048x112x112.Idx) :
    i ∈ ((cfg0.win 1).blk t).view.set ↔ ∀ a : Fin 3, win0_1.index t a * S32x112x112.size a ≤ (i a).val
      ∧ (i a).val < win0_1.index t a * S32x112x112.size a + S32x112x112.size a := by
  show i ∈ ((View.whole main_v5).slice (win0_1.rect t)).set ↔ _
  rw [View.set_slice_whole, Rect.mem_set_unit]
  exact Iff.rfl

/-- Row B of the result array lies in the block of point B / 32. -/
theorem cover (i : S2048x112x112.Idx) :
    ∃ t : Fin cfg0.N, (cfg0.win 1).flush t = true ∧ i ∈ ((cfg0.win 1).blk t).view.set := by
  have h0 : (i 0).val < 2048 := (i 0).isLt
  have h1 : (i 1).val < 112 := (i 1).isLt
  have h2 : (i 2).val < 112 := (i 2).isLt
  refine ⟨⟨(i 0).val / 32, by rw [show cfg0.N = 64 from N_0]; omega⟩, flush0_1 _, ?_⟩
  rw [mem_blk]
  obtain ⟨a0, a1, a2, b0, b1, b2⟩ := idx_facts ⟨(i 0).val / 32, by rw [show cfg0.N = 64 from N_0]; omega⟩
  intro a
  match a with
  | ⟨0, _⟩ =>
    show win0_1.index _ (0 : Fin 3) * 32 ≤ (i 0).val ∧ (i 0).val < win0_1.index _ (0 : Fin 3) * 32 + 32
    rw [b0]; dsimp only; omega
  | ⟨1, _⟩ =>
    show win0_1.index _ (1 : Fin 3) * 112 ≤ (i 1).val ∧ (i 1).val < win0_1.index _ (1 : Fin 3) * 112 + 112
    rw [b1]; omega
  | ⟨2, _⟩ =>
    show win0_1.index _ (2 : Fin 3) * 112 ≤ (i 2).val ∧ (i 2).val < win0_1.index _ (2 : Fin 3) * 112 + 112
    rw [b2]; omega

/-- The kernel's result array after the run: `pooled` of the launched array. -/
theorem final (c : Dev nD) : (dats m 0 c).arrAt 1 cfg0.N = pooled (V m c main_v4) :=
  (dats m 0 c).arrAt_eq_of_cover 1 (pooled (V m c main_v4)) (fun t _ => flushed_eq m c t) cover

/-- The program's result as a function of its argument: re-lay, pool, split the leading axis. -/
def result (x : S32x64x224x224.Idx → Elt F .f32) : S32x64x112x112.Idx → Elt F .f32 :=
  shapeCast S32x64x112x112 (pooled (relaid x)) shapeCasts_S2048x112x112_S32x64x112x112

/-- The one layout step after the kernel, applied to the kernel's result array. -/
theorem tail_eq (c : Dev nD) :
    Pipeline.afterTail₀ cfgs (dats m) 0 (V0 m) [hostOps1] c main_v6 = result (m ((c : Thread nD τ).loc main_arg0)) := by
  unfold Pipeline.afterTail₀
  show StableHlo.after hostOps1 _ (Proc.devRef .tc main_v6) = _
  after_results
  have e : Pipeline.withArrays spec0 c (V0 m c) (fun w => (dats m 0 c).arrAt w cfg0.N) (Proc.devRef .tc main_v5)
      = pooled (relaid (m ((c : Thread nD τ).loc main_arg0))) :=
    (Pipeline.withArrays_arr spec0 launch0.win.arr_inj c (V0 m c) (fun w => (dats m 0 c).arrAt w cfg0.N) 1).trans
      ((final m c).trans (by rw [V_launch]))
  exact (show _ = shapeCast S32x64x112x112 (Pipeline.withArrays spec0 c (V0 m c) (fun w => (dats m 0 c).arrAt w cfg0.N)
      (Proc.devRef .tc main_v5)) shapeCasts_S2048x112x112_S32x64x112x112 from rfl).trans
    (congrArg (fun u => shapeCast S32x64x112x112 u shapeCasts_S2048x112x112_S32x64x112x112) e)

/-- The run, read: the program's result at `result` of its argument, the argument unchanged. -/
theorem run : θ_run defs (onTc (τ := τ) (main (F := F))) ⟨m, fun _ => 0, ρ⟩ fun r => ∀ c : Dev nD,
      r.2.mem ((c : Thread nD τ).loc main_v6) = result (m ((c : Thread nD τ).loc main_arg0))
      ∧ r.2.mem ((c : Thread nD τ).loc main_arg0) = m ((c : Thread nD τ).loc main_arg0) :=
  (θ_run defs _ _).mono (fun r h c =>
      ⟨((h c).2 main_v6 (Pipeline.mem_restRefs_of main_v6 (by decide) (by decide))).trans (tail_eq m c),
        ((h c).2 main_arg0 (Pipeline.mem_restRefs_of main_arg0 (by decide) (by decide))).trans (W_main_arg0 m (dats m) c)⟩)
    (run_main m ρ)

end Cert.KernelIdeal.PoolArray

end
-- ==== Proof.PoolWindow.lean ====
/-
  A 2 × 2 window reduction with stride 2 over the last two axes of a [32, 64, 224, 224] array, read at an entry.

  The window's four positions are visited in row-major order, (0,0), (0,1), (1,0), (1,1), so the result at
  (n, c, k, j) is the fold  f (f (f (f v x(2k, 2j)) x(2k, 2j+1)) x(2k+1, 2j)) x(2k+1, 2j+1)  from the initial
  value v; with no padding every position lies inside the array.
-/
import Idealize.ShloMosaic.PureOps.Ideal
import Idealize.ShloMosaic.Lib.ValueIdx

noncomputable section

namespace Cert.Pool

open Idealize.ShloMosaic Idealize.ShloMosaic.ValueIdx

abbrev Img : Shape := ⟨4, ![32, 64, 224, 224]⟩
abbrev Pooled : Shape := ⟨4, ![32, 64, 112, 112]⟩
abbrev Scalar0 : Shape := ⟨0, ![]⟩
/-- The window as a shape: its positions are the indices of [1, 1, 2, 2]. -/
abbrev Win : Shape := ⟨4, ![1, 1, 2, 2]⟩

theorem win_numel : Win.numel = 4 := by decide

variable {α : Type}

/-- A left fold over four positions, written out. -/
theorem foldl_finRange_four {β γ : Type} {N : Nat} (hN : N = 4) (f : β → γ → β) (g : Fin N → γ) (v : β) :
    (List.finRange N).foldl (fun r n => f r (g n)) v
      = f (f (f (f v (g ⟨0, by omega⟩)) (g ⟨1, by omega⟩)) (g ⟨2, by omega⟩)) (g ⟨3, by omega⟩) := by
  subst hN; rfl

/-- Position 2a + b of the window, in row-major order, is (0, 0, a, b). -/
theorem win_pos (a b : Fin 2) (hn : 2 * a.val + b.val < Win.numel) :
    Win.rowMajor.symm ⟨2 * a.val + b.val, hn⟩ = ix4 (0 : Fin 1) (0 : Fin 1) a b := by
  rw [Equiv.symm_apply_eq]
  apply Fin.ext
  rw [Shape.rowMajor_val_four]
  show 2 * a.val + b.val = (((0 : Fin 1).val * 1 + (0 : Fin 1).val) * 2 + a.val) * 2 + b.val
  simp only [Fin.val_zero]
  omega

/-- What the window at output entry `jj` reads at its position `q`: the array there, or the initial value on padding. -/
def winRead (x : Img.Idx → α) (v : α) (jj : Pooled.Idx) (hr : Img.rank = Pooled.rank) (q : Fin Win.numel) : α :=
  let p : Fin Img.rank → Nat := fun a => (jj (a.cast hr)).val * (![1, 1, 2, 2] : Fin 4 → Nat) a + (Win.rowMajor.symm q a).val
  if hin : ∀ a, (![0, 0, 0, 0] : Fin 4 → Nat) a ≤ p a ∧ p a - (![0, 0, 0, 0] : Fin 4 → Nat) a < Img.size a
  then x (fun a => ⟨p a - (![0, 0, 0, 0] : Fin 4 → Nat) a, (hin a).2⟩) else v

/-- With no padding, position (a, b) of the window at (n, c, k, j) reads x(n, c, 2k + a, 2j + b). -/
theorem winRead_eq (x : Img.Idx → α) (v : α) (n : Fin 32) (c : Fin 64) (k j : Fin 112) (hr : Img.rank = Pooled.rank)
    (a b : Fin 2) (hn : 2 * a.val + b.val < Win.numel) (h : Fin 224) (hh : h.val = 2 * k.val + a.val)
    (w : Fin 224) (hw : w.val = 2 * j.val + b.val) :
    winRead x v (ix4 n c k j) hr ⟨2 * a.val + b.val, hn⟩ = x (ix4 n c h w) := by
  have hn' := n.isLt; have hc := c.isLt; have hk := k.isLt; have hj := j.isLt; have ha := a.isLt; have hb := b.isLt
  unfold winRead
  dsimp only
  split
  · refine congrArg x (funext fun a' => Fin.ext ?_)
    dsimp only
    rw [win_pos a b hn]
    match a' with
    | ⟨0, _⟩ => show n.val * 1 + 0 - 0 = n.val; omega
    | ⟨1, _⟩ => show c.val * 1 + 0 - 0 = c.val; omega
    | ⟨2, _⟩ => show k.val * 2 + a.val - 0 = h.val; omega
    | ⟨3, _⟩ => show j.val * 2 + b.val - 0 = w.val; omega
  · rename_i hnin
    refine absurd (fun a' => ?_) hnin
    rw [win_pos a b hn]
    match a' with
    | ⟨0, _⟩ => show 0 ≤ n.val * 1 + 0 ∧ n.val * 1 + 0 - 0 < 32; omega
    | ⟨1, _⟩ => show 0 ≤ c.val * 1 + 0 ∧ c.val * 1 + 0 - 0 < 64; omega
    | ⟨2, _⟩ => show 0 ≤ k.val * 2 + a.val ∧ k.val * 2 + a.val - 0 < 224; omega
    | ⟨3, _⟩ => show 0 ≤ j.val * 2 + b.val ∧ j.val * 2 + b.val - 0 < 224; omega

/-- The window reduction at (n, c, k, j): the fold of `f` from the initial value over the four entries of the
    window, first row first. -/
theorem reduceWindow_apply (f : α → α → α) (x : Img.Idx → α) (init : Scalar0.Idx → α)
    (h : Img.ReduceWindows ![1, 1, 2, 2] ![1, 1, 2, 2] ![0, 0, 0, 0] ![0, 0, 0, 0] Pooled) (hu : 0 < Scalar0.numel)
    (n : Fin 32) (c : Fin 64) (k j : Fin 112) :
    Host.reduceWindow f ![1, 1, 2, 2] ![1, 1, 2, 2] ![0, 0, 0, 0] ![0, 0, 0, 0] x init h hu (ix4 n c k j)
      = f (f (f (f (init (Shape.Idx.first hu))
          (x (ix4 n c ⟨2 * k.val, by omega⟩ ⟨2 * j.val, by omega⟩)))
          (x (ix4 n c ⟨2 * k.val, by omega⟩ ⟨2 * j.val + 1, by omega⟩)))
          (x (ix4 n c ⟨2 * k.val + 1, by omega⟩ ⟨2 * j.val, by omega⟩)))
          (x (ix4 n c ⟨2 * k.val + 1, by omega⟩ ⟨2 * j.val + 1, by omega⟩)) := by
  show (List.finRange Win.numel).foldl
      (fun r q => f r (winRead x (init (Shape.Idx.first hu)) (ix4 n c k j) h.1.symm q)) (init (Shape.Idx.first hu)) = _
  rw [foldl_finRange_four win_numel]
  have e := fun (a b : Fin 2) hn h' hh w hw => winRead_eq x (init (Shape.Idx.first hu)) n c k j h.1.symm a b hn h' hh w hw
  rw [show (⟨0, by rw [win_numel]; omega⟩ : Fin Win.numel) = ⟨2 * (0 : Fin 2).val + (0 : Fin 2).val, by rw [win_numel]; decide⟩ from rfl,
    show (⟨1, by rw [win_numel]; omega⟩ : Fin Win.numel) = ⟨2 * (0 : Fin 2).val + (1 : Fin 2).val, by rw [win_numel]; decide⟩ from rfl,
    show (⟨2, by rw [win_numel]; omega⟩ : Fin Win.numel) = ⟨2 * (1 : Fin 2).val + (0 : Fin 2).val, by rw [win_numel]; decide⟩ from rfl,
    show (⟨3, by rw [win_numel]; omega⟩ : Fin Win.numel) = ⟨2 * (1 : Fin 2).val + (1 : Fin 2).val, by rw [win_numel]; decide⟩ from rfl,
    e 0 0 _ ⟨2 * k.val, by omega⟩ (by simp) ⟨2 * j.val, by omega⟩ (by simp),
    e 0 1 _ ⟨2 * k.val, by omega⟩ (by simp) ⟨2 * j.val + 1, by omega⟩ (by simp),
    e 1 0 _ ⟨2 * k.val + 1, by omega⟩ (by simp) ⟨2 * j.val, by omega⟩ (by simp),
    e 1 1 _ ⟨2 * k.val + 1, by omega⟩ (by simp) ⟨2 * j.val + 1, by omega⟩ (by simp)]

end Cert.Pool

end
-- ==== Proof.PoolBridge.lean ====
/-
  The two programs compute one function.

  At the exact instance the maximum is the maximum of extended reals and the reduction's initial value, −∞, is its
  identity. The kernel's result at (n, c, k, j) is
      max (max x(2k, 2j) x(2k+1, 2j)) (max x(2k, 2j+1) x(2k+1, 2j+1))
  (rows first, then columns); the reference's window reduction is the fold
      max (max (max (max (−∞) x(2k, 2j)) x(2k, 2j+1)) x(2k+1, 2j)) x(2k+1, 2j+1).
  The two are equal because max is associative and commutative and −∞ is its identity; no finiteness is used.
-/
import proofs.«112859_j48137993453716_2_alg».proof.Proof.PoolArray
import proofs.«112859_j48137993453716_2_alg».proof.Proof.PoolWindow
import proofs.«112859_j48137993453716_2_alg».proof.Proof.Gen.ReferenceIdeal.Read

set_option maxRecDepth 16384

noncomputable section

open Idealize.ShloMosaic Idealize.ShloMosaic.TcCoe Idealize.SL.Sem
open Idealize.ShloMosaic.ValueIdx

namespace Cert.Proof.PoolBridge

open Cert.KernelIdeal.PoolArray Cert.KernelIdeal.PoolLayout

/-- The reduction's initial value denotes −∞. -/
theorem neg_inf : Ideal.ofBits .f32 0xFF800000#32 = (⊥ : EReal) := by simp [Ideal.ofBits, Ideal.ieee]

/-- The fold over a window from −∞, regrouped as rows first, then columns. -/
theorem max_fold_regroup (a b c d : EReal) :
    max (max (max (max ⊥ a) b) c) d = max (max a c) (max b d) := by
  rw [max_bot_left, max_assoc a b c, max_comm b c, ← max_assoc a c b, max_assoc (max a c) b d]

/-- The reference's window reduction is the kernel's result function, entry by entry. -/
theorem reference_eq (x : Cert.KernelIdeal.S32x64x224x224.Idx → Ideal .f32) :
    Cert.ReferenceIdeal.Read.val_main_v0 (F := Ideal) x = result (F := Ideal) x := by
  funext i
  obtain ⟨n, c, k, j, rfl⟩ : ∃ (n : Fin 32) (c : Fin 64) (k j : Fin 112), i = ix4 n c k j :=
    ⟨i 0, i 1, i 2, i 3, eq_ix4 i⟩
  have hn := n.isLt; have hc := c.isLt; have hk := k.isLt; have hj := j.isLt
  unfold Cert.ReferenceIdeal.Read.val_main_v0
  refine (Cert.Pool.reduceWindow_apply _ _ _ _ _ n c k j).trans ?_
  unfold result
  refine Eq.trans ?_ (split_apply (pooled (F := Ideal) (relaid x)) n c k j ⟨64 * n.val + c.val, by omega⟩ rfl).symm
  show _ = pool4 (F := Ideal) (relaid x) ⟨64 * n.val + c.val, by omega⟩ k j
  unfold pool4
  rw [relaid_apply x n c k 0 0 j ⟨64 * n.val + c.val, by omega⟩ rfl ⟨j.val, by omega⟩
        (by show j.val = 224 * 0 + 112 * 0 + j.val; omega)
        ⟨2 * k.val, by omega⟩ (by show 2 * k.val = 2 * k.val + 0; omega)
        ⟨2 * j.val, by omega⟩ (by show 2 * j.val = 2 * j.val + 0; omega),
    relaid_apply x n c k 1 0 j ⟨64 * n.val + c.val, by omega⟩ rfl ⟨j.val + 224, by omega⟩
        (by show j.val + 224 = 224 * 1 + 112 * 0 + j.val; omega)
        ⟨2 * k.val + 1, by omega⟩ (by show 2 * k.val + 1 = 2 * k.val + 1; omega)
        ⟨2 * j.val, by omega⟩ (by show 2 * j.val = 2 * j.val + 0; omega),
    relaid_apply x n c k 0 1 j ⟨64 * n.val + c.val, by omega⟩ rfl ⟨j.val + 112, by omega⟩
        (by show j.val + 112 = 224 * 0 + 112 * 1 + j.val; omega)
        ⟨2 * k.val, by omega⟩ (by show 2 * k.val = 2 * k.val + 0; omega)
        ⟨2 * j.val + 1, by omega⟩ (by show 2 * j.val + 1 = 2 * j.val + 1; omega),
    relaid_apply x n c k 1 1 j ⟨64 * n.val + c.val, by omega⟩ rfl ⟨j.val + 336, by omega⟩
        (by show j.val + 336 = 224 * 1 + 112 * 1 + j.val; omega)
        ⟨2 * k.val + 1, by omega⟩ (by show 2 * k.val + 1 = 2 * k.val + 1; omega)
        ⟨2 * j.val + 1, by omega⟩ (by show 2 * j.val + 1 = 2 * j.val + 1; omega)]
  show max (max (max (max (Ideal.ofBits .f32 0xFF800000#32) _) _) _) _ = max (max _ _) (max _ _)
  rw [neg_inf]
  exact max_fold_regroup _ _ _ _

end Cert.Proof.PoolBridge

end
-- ==== Proof.lean ====
/-
  2 × 2 max pooling with stride 2 of x : f32[32, 64, 224, 224]: a blocked kernel against a window reduction.

  The kernel's program first re-lays x without changing a value — channels merged, each row's columns split by
  parity (even columns first), rows 2k and 2k + 1 laid side by side — so that one grid point sees, for 32 channel
  images at a time, rows of 448 entries in which the four entries of every 2 × 2 window sit at columns j, j + 112,
  j + 224 and j + 336. The body takes the maximum of the two row halves, then of the two column halves, and the
  result's leading axis is split back into (n, c). Read at the exact instance, where the maximum is the maximum of
  extended reals, the program's result at (n, c, k, j) is
      max (max x(n,c,2k,2j) x(n,c,2k+1,2j)) (max x(n,c,2k,2j+1) x(n,c,2k+1,2j+1)).
  The reference folds the maximum over the same four entries in row-major order starting from −∞. Since the
  maximum is associative and commutative and −∞ is its identity, the two agree for every input, finite or not.

  The three frames are the generated ones (for the reference, its generated run with the result dropped); the
  idealization rewrote nothing, so the preservation claim is trivial.
-/
import proofs.«112859_j48137993453716_2_alg».proof.Defs
import proofs.«112859_j48137993453716_2_alg».proof.Proof.Gen.Kernel
import proofs.«112859_j48137993453716_2_alg».proof.Proof.Gen.Kernel.Frame
import proofs.«112859_j48137993453716_2_alg».proof.Proof.Gen.KernelIdeal
import proofs.«112859_j48137993453716_2_alg».proof.Proof.Gen.KernelIdeal.Frame
import proofs.«112859_j48137993453716_2_alg».proof.Proof.Gen.ReferenceIdeal
import proofs.«112859_j48137993453716_2_alg».proof.Proof.Gen.ReferenceIdeal.Run
import proofs.«112859_j48137993453716_2_alg».proof.Proof.Gen.ReferenceIdeal.Read
import proofs.«112859_j48137993453716_2_alg».proof.Proof.Gen.Pre_finite_inputs
import proofs.«112859_j48137993453716_2_alg».proof.Proof.PoolArray
import proofs.«112859_j48137993453716_2_alg».proof.Proof.PoolBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the pooled array of the argument: the kernel's program by its blocks, the reference by
    its window fold, and the two are one function of the argument. -/
theorem algebraic : Cert.algebraic_KernelIdeal_ReferenceIdeal := by
  intro m ρ m' ρ' _ hagree
  refine ⟨fun c => Cert.KernelIdeal.PoolArray.result
      (m ((c.tc : Thread Cert.KernelIdeal.nD Cert.KernelIdeal.τ).loc Cert.KernelIdeal.main_arg0)),
    Cert.KernelIdeal.PoolArray.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Proof.PoolBridge.reference_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
